-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x64 : Shape := ⟨2, ![512, 64]⟩
abbrev S128x1 : Shape := ⟨2, ![128, 1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S4096x512 .f32) (main_arg1 : IVec S4096x4096 32) (main_arg2 : FVec F S512x64 .f32) (main_arg3 : FVec F S128x1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S4096x512 : Shape := ⟨2, ![4096, 512]⟩
abbrev S4096x4096 : Shape := ⟨2, ![4096, 4096]⟩
abbrev S512x64 : Shape := ⟨2, ![512, 64]⟩
abbrev S128x1 : Shape := ⟨2, ![128, 1]⟩
abbrev S64x1 : Shape := ⟨2, ![64, 1]⟩
abbrev S512x1 : Shape := ⟨2, ![512, 1]⟩
abbrev S4096x1 : Shape := ⟨2, ![4096, 1]⟩
abbrev S1x4096 : Shape := ⟨2, ![1, 4096]⟩
abbrev S256x1 : Shape := ⟨2, ![256, 1]⟩
abbrev S256x4096 : Shape := ⟨2, ![256, 4096]⟩
abbrev S256 : Shape := ⟨1, ![256]⟩

abbrev nBuf : Space → Nat
  | .hbm => 12
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x64, .f32⟩
  | .hbm, ⟨3, _⟩ => ⟨S128x1, .f32⟩
  | .hbm, ⟨4, _⟩ => ⟨S64x1, .f32⟩
  | .hbm, ⟨5, _⟩ => ⟨S64x1, .f32⟩
  | .hbm, ⟨6, _⟩ => ⟨S512x1, .f32⟩
  | .hbm, ⟨7, _⟩ => ⟨S512x1, .f32⟩
  | .hbm, ⟨8, _⟩ => ⟨S4096x1, .f32⟩
  | .hbm, ⟨9, _⟩ => ⟨S4096x1, .f32⟩
  | .hbm, ⟨10, _⟩ => ⟨S1x4096, .f32⟩
  | .hbm, ⟨11, _⟩ => ⟨S4096x4096, .f32⟩
  | .local _ .vmem, ⟨0, _⟩ => ⟨S256x1, .f32⟩
  | .local _ .vmem, ⟨1, _⟩ => ⟨S256x1, .f32⟩
  | .local _ .vmem, ⟨2, _⟩ => ⟨S1x4096, .f32⟩
  | .local _ .vmem, ⟨3, _⟩ => ⟨S256x4096, .i32⟩
  | .local _ .vmem, ⟨4, _⟩ => ⟨S256x4096, .i32⟩
  | .local _ .vmem, ⟨5, _⟩ => ⟨S256x4096, .f32⟩
  | .local _ .vmem, ⟨6, _⟩ => ⟨S256x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S128x1_S64x1_0_0 : S128x1.Slices ![0, 0] S64x1
  slices_S128x1_S64x1_64_0 : S128x1.Slices ![64, 0] S64x1
  shapeCasts_S4096x1_S1x4096 : S4096x1.ShapeCasts S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  dot_S512x64_S64x1_S512x1_1_0_0_1_n_n_wf : DotDims.WF S512x64 S64x1 S512x1 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S4096x1.size a
  hwx0_0 : ∀ i : grid0.Coords, EltTy.bits .f32 = 32 ∨ (Rect.block (s := S4096x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .i32 = 32 ∨ (Rect.block (s := S4096x4096) S256x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_v4) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x64 : Shape := ⟨2, ![512, 64]⟩
abbrev S128x1 : Shape := ⟨2, ![128, 1]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x64, .f32⟩
  | .hbm, ⟨3, _⟩ => ⟨S128x1, .f32⟩
  | .hbm, ⟨4, _⟩ => ⟨S4096x64, .f32⟩
  | .hbm, ⟨5, _⟩ => ⟨S64x1, .f32⟩
  | .hbm, ⟨6, _⟩ => ⟨S4096x1, .f32⟩
  | .hbm, ⟨7, _⟩ => ⟨S64x1, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  dot_S4096x512_S512x64_S4096x64_1_0_0_1_n_n_wf : DotDims.WF S4096x512 S512x64 S4096x64 [1] [0] [0] [1] [] []
  dot_S4096x64_S64x1_S4096x1_1_0_0_1_n_n_wf : DotDims.WF S4096x64 S64x1 S4096x1 [1] [0] [0] [1] [] []

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Spec.lean ====
/-
  The function both programs compute, stated once over plain index types.

  A node's two projections are `p₁ r = Σ_k (Σ_j X r j · W j k) · a₁ k` and `p₂` likewise with the second half
  of the attention vector. Entry `(r, c)` of the score matrix is `p₁ r + p₂ c`, passed through the leaky
  rectifier (slope the f32 word nearest 0.01), and replaced by the f32 word nearest -9e15 where the adjacency
  entry is not positive. Each row is then normalised: subtract the row's maximum, exponentiate, divide by the
  row's sum of exponentials.

  The two programs differ only in how a projection is bracketed: `(X · W) · a` against `X · (W · a)`. For
  real entries the two are one number (distributivity and a swap of the two finite sums); in the extended
  reals that step needs every entry to be a real, which is what the precondition provides.
-/
import Idealize.ShloMosaic.PureOps.Ideal
import Idealize.ShloMosaic.PureOps.Ideal.Laws
import proofs.«135732_j21698174780222_2_alg».proof.Proof.LibERealSums

noncomputable section

open Idealize.ShloMosaic

namespace Cert.Attn

/-- One entry's masked score from the pre-activation `e` and the adjacency word `a`: the leaky rectifier
    of `e` where `a > 0` (signed), the large negative constant elsewhere. -/
def score (e : EReal) (a : BitVec 32) : EReal :=
  Scalar.select (IntOp.cmpi .sgt a 0#32)
    (Scalar.select (FloatOps.cmpf (F := Ideal) (φ := .f32) .oge e (FloatOps.ofBits (F := Ideal) .f32 0x00000000#32)) e
      (FloatOps.mulf (F := Ideal) (φ := .f32) (FloatOps.ofBits (F := Ideal) .f32 0x3C23D70A#32) e))
    (FloatOps.ofBits (F := Ideal) .f32 0xD9FFCB9E#32)

/-- The maximum of a row, folded from minus infinity. -/
def rowMax (s : Fin 4096 → EReal) : EReal :=
  (Finset.univ : Finset (Fin 4096)).fold max (Ideal.ofBits .f32 0xFF800000#32) s

/-- The row's entry `c` after normalisation: `exp (s c - max) / Σ_k exp (s k - max)`. -/
def softmaxRow (s : Fin 4096 → EReal) (c : Fin 4096) : EReal :=
  Ideal.div (Ideal.exp (s c - rowMax s)) (∑ k : Fin 4096, Ideal.exp (s k - rowMax s))

/-- Entry `(r, c)` of the attention matrix from the two projections and the adjacency words. -/
def attn (p₁ p₂ : Fin 4096 → EReal) (adj : Fin 4096 → Fin 4096 → BitVec 32) (r c : Fin 4096) : EReal :=
  softmaxRow (fun k => score (p₁ r + p₂ k) (adj r k)) c

/-- A projection bracketed as `(X · W) · a`. -/
def projLeft (X : Fin 4096 → Fin 512 → EReal) (W : Fin 512 → Fin 64 → EReal) (a : Fin 64 → EReal) (r : Fin 4096) : EReal :=
  ∑ k : Fin 64, (∑ j : Fin 512, X r j * W j k) * a k

/-- A projection bracketed as `X · (W · a)`. -/
def projRight (X : Fin 4096 → Fin 512 → EReal) (W : Fin 512 → Fin 64 → EReal) (a : Fin 64 → EReal) (r : Fin 4096) : EReal :=
  ∑ j : Fin 512, X r j * ∑ k : Fin 64, W j k * a k

/-- For real entries `Σ_k (Σ_j x j · w j k) · y k = Σ_j x j · Σ_k w j k · y k`: distribute, then swap the sums. -/
theorem real_reassoc {J K : ℕ} (x : Fin J → ℝ) (w : Fin J → Fin K → ℝ) (y : Fin K → ℝ) :
    ∑ k : Fin K, (∑ j : Fin J, x j * w j k) * y k = ∑ j : Fin J, x j * ∑ k : Fin K, w j k * y k := by
  simp only [Finset.sum_mul, Finset.mul_sum]
  rw [Finset.sum_comm]
  exact Finset.sum_congr rfl fun j _ => Finset.sum_congr rfl fun k _ => by ring

/-- The same in the extended reals, when every entry is a real. -/
theorem ereal_reassoc {J K : ℕ} (X : Fin J → EReal) (W : Fin J → Fin K → EReal) (a : Fin K → EReal)
    (hX : ∀ j, ∃ x : ℝ, X j = (x : EReal)) (hW : ∀ j k, ∃ w : ℝ, W j k = (w : EReal)) (ha : ∀ k, ∃ y : ℝ, a k = (y : EReal)) :
    ∑ k : Fin K, (∑ j : Fin J, X j * W j k) * a k = ∑ j : Fin J, X j * ∑ k : Fin K, W j k * a k := by
  choose x hx using hX
  choose w hw using hW
  choose y hy using ha
  have inner₁ : ∀ k, ∑ j : Fin J, X j * W j k = ((∑ j : Fin J, x j * w j k : ℝ) : EReal) := fun k =>
    LibERealSums.sum_eq_coe _ _ _ fun j _ => by rw [hx j, hw j k, EReal.coe_mul]
  have inner₂ : ∀ j, ∑ k : Fin K, W j k * a k = ((∑ k : Fin K, w j k * y k : ℝ) : EReal) := fun j =>
    LibERealSums.sum_eq_coe _ _ _ fun k _ => by rw [hw j k, hy k, EReal.coe_mul]
  have lhs : ∑ k : Fin K, (∑ j : Fin J, X j * W j k) * a k
      = ((∑ k : Fin K, (∑ j : Fin J, x j * w j k) * y k : ℝ) : EReal) :=
    LibERealSums.sum_eq_coe _ _ _ fun k _ => by rw [inner₁ k, hy k, EReal.coe_mul]
  have rhs : ∑ j : Fin J, X j * ∑ k : Fin K, W j k * a k
      = ((∑ j : Fin J, x j * ∑ k : Fin K, w j k * y k : ℝ) : EReal) :=
    LibERealSums.sum_eq_coe _ _ _ fun j _ => by rw [inner₂ j, hx j, EReal.coe_mul]
  rw [lhs, rhs, real_reassoc]

/-- So the two bracketings of a projection agree on real inputs. -/
theorem projLeft_eq_projRight (X : Fin 4096 → Fin 512 → EReal) (W : Fin 512 → Fin 64 → EReal) (a : Fin 64 → EReal)
    (hX : ∀ r j, ∃ x : ℝ, X r j = (x : EReal)) (hW : ∀ j k, ∃ w : ℝ, W j k = (w : EReal)) (ha : ∀ k, ∃ y : ℝ, a k = (y : EReal))
    (r : Fin 4096) : projLeft X W a r = projRight X W a r :=
  ereal_reassoc (X r) W a (hX r) hW ha

end Cert.Attn

end
-- ==== Proof.Views.lean ====
/-
  The four argument arrays read as families over their coordinates, and the result as ONE whole-array
  function of them, in both bracketings of the projections.

  `X` is `[4096, 512]`, `W` is `[512, 64]`; the attention vector `[128, 1]` is read as its two halves,
  rows `0..63` and rows `64..127`; the adjacency words are `[4096, 4096]`.
-/
import proofs.«135732_j21698174780222_2_alg».proof.Proof.Spec
import Idealize.ShloMosaic.Lib.ValueIdx

noncomputable section

open Idealize.ShloMosaic Idealize.ShloMosaic.ValueIdx

namespace Cert.Attn

/-- `X r j`. -/
def matX (x0 : (⟨2, ![4096, 512]⟩ : Shape).Idx → EReal) : Fin 4096 → Fin 512 → EReal := fun r j => x0 (ix2 r j)
/-- `W j k`. -/
def matW (x2 : (⟨2, ![512, 64]⟩ : Shape).Idx → EReal) : Fin 512 → Fin 64 → EReal := fun j k => x2 (ix2 j k)
/-- The first half of the attention vector, `a k` for `k < 64`. -/
def vecA1 (x3 : (⟨2, ![128, 1]⟩ : Shape).Idx → EReal) : Fin 64 → EReal :=
  fun k => x3 (ix2 (⟨k.val, by have := k.isLt; omega⟩ : Fin 128) (0 : Fin 1))
/-- The second half, `a (64 + k)`. -/
def vecA2 (x3 : (⟨2, ![128, 1]⟩ : Shape).Idx → EReal) : Fin 64 → EReal :=
  fun k => x3 (ix2 (⟨64 + k.val, by have := k.isLt; omega⟩ : Fin 128) (0 : Fin 1))
/-- The adjacency word at `(r, c)`. -/
def adjM (x1 : (⟨2, ![4096, 4096]⟩ : Shape).Idx → BitVec 32) : Fin 4096 → Fin 4096 → BitVec 32 := fun r c => x1 (ix2 r c)

/-- The result with each projection bracketed `(X · W) · a`. -/
def resultLeft (x0 : (⟨2, ![4096, 512]⟩ : Shape).Idx → EReal) (x1 : (⟨2, ![4096, 4096]⟩ : Shape).Idx → BitVec 32)
    (x2 : (⟨2, ![512, 64]⟩ : Shape).Idx → EReal) (x3 : (⟨2, ![128, 1]⟩ : Shape).Idx → EReal) :
    (⟨2, ![4096, 4096]⟩ : Shape).Idx → EReal :=
  fun i => attn (projLeft (matX x0) (matW x2) (vecA1 x3)) (projLeft (matX x0) (matW x2) (vecA2 x3)) (adjM x1) (i 0) (i 1)

/-- The result with each projection bracketed `X · (W · a)`. -/
def resultRight (x0 : (⟨2, ![4096, 512]⟩ : Shape).Idx → EReal) (x1 : (⟨2, ![4096, 4096]⟩ : Shape).Idx → BitVec 32)
    (x2 : (⟨2, ![512, 64]⟩ : Shape).Idx → EReal) (x3 : (⟨2, ![128, 1]⟩ : Shape).Idx → EReal) :
    (⟨2, ![4096, 4096]⟩ : Shape).Idx → EReal :=
  fun i => attn (projRight (matX x0) (matW x2) (vecA1 x3)) (projRight (matX x0) (matW x2) (vecA2 x3)) (adjM x1) (i 0) (i 1)

/-- When every entry of `X`, `W` and the attention vector is a real, the two bracketings give one array. -/
theorem resultLeft_eq_resultRight (x0 : (⟨2, ![4096, 512]⟩ : Shape).Idx → EReal) (x1 : (⟨2, ![4096, 4096]⟩ : Shape).Idx → BitVec 32)
    (x2 : (⟨2, ![512, 64]⟩ : Shape).Idx → EReal) (x3 : (⟨2, ![128, 1]⟩ : Shape).Idx → EReal)
    (h0 : ∀ i, ∃ x : ℝ, x0 i = (x : EReal)) (h2 : ∀ i, ∃ x : ℝ, x2 i = (x : EReal)) (h3 : ∀ i, ∃ x : ℝ, x3 i = (x : EReal)) :
    resultLeft x0 x1 x2 x3 = resultRight x0 x1 x2 x3 := by
  have e1 : projLeft (matX x0) (matW x2) (vecA1 x3) = projRight (matX x0) (matW x2) (vecA1 x3) :=
    funext fun r => projLeft_eq_projRight _ _ _ (fun r j => h0 _) (fun j k => h2 _) (fun k => h3 _) r
  have e2 : projLeft (matX x0) (matW x2) (vecA2 x3) = projRight (matX x0) (matW x2) (vecA2 x3) :=
    funext fun r => projLeft_eq_projRight _ _ _ (fun r j => h0 _) (fun j k => h2 _) (fun k => h3 _) r
  unfold resultLeft resultRight
  rw [e1, e2]

end Cert.Attn

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.RefValue.lean ====
/-
  The reference program's result, read one operation at a time, is the specification with each projection
  bracketed `(X · W) · a`.

  Stage by stage at explicit coordinates: the two projections are the sums over `k < 64` of `(X · W) r k`
  times a half of the attention vector; the score at `(r, c)` adds the first projection at `r` (a column
  broadcast along the row) to the second at `c` (transposed, then broadcast down the rows), rectifies and masks
  it; the row maximum is the fold of `max` from minus infinity over the row (the later `max` with a splat of
  minus infinity changes nothing); the exponentials, their row sum from zero, and the quotient follow.
-/
import proofs.«135732_j21698174780222_2_alg».proof.Proof.Gen.ReferenceIdeal.Read
import proofs.«135732_j21698174780222_2_alg».proof.Proof.Views
import proofs.«135732_j21698174780222_2_alg».proof.Proof.LibRows

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S4096x512, .f32⟩ : BufTy).Contents (Elt Ideal)) (x1 : (⟨S4096x4096, .i32⟩ : BufTy).Contents (Elt Ideal))
  (x2 : (⟨S512x64, .f32⟩ : BufTy).Contents (Elt Ideal)) (x3 : (⟨S128x1, .f32⟩ : BufTy).Contents (Elt Ideal))

/-- The first projection at node `r`. -/
theorem proj1 (r : Fin 4096) :
    val_main_v2 (F := Ideal) x0 x2 x3 (ix2 r 0) = projLeft (matX x0) (matW x2) (vecA1 x3) r := by
  rw [val_main_v2_apply]
  unfold projLeft
  refine Finset.sum_congr rfl fun k _ => ?_
  rw [val_main_v0_apply, val_main_v1_apply]
  refine congrArg₂ (· * ·) (Finset.sum_congr rfl fun j _ => congrArg₂ (· * ·) (congrArg x0 ?_) (congrArg x2 ?_)) (congrArg x3 ?_)
  all_goals exact funext fun a => Fin.ext (by match a with | ⟨0, _⟩ => rfl | ⟨1, _⟩ => rfl)

/-- The second projection at node `c`. -/
theorem proj2 (c : Fin 4096) :
    val_main_v4 (F := Ideal) x0 x2 x3 (ix2 c 0) = projLeft (matX x0) (matW x2) (vecA2 x3) c := by
  rw [val_main_v4_apply]
  unfold projLeft
  refine Finset.sum_congr rfl fun k _ => ?_
  rw [val_main_v0_apply, val_main_v3_apply]
  refine congrArg₂ (· * ·) (Finset.sum_congr rfl fun j _ => congrArg₂ (· * ·) (congrArg x0 ?_) (congrArg x2 ?_)) (congrArg x3 ?_)
  all_goals exact funext fun a => Fin.ext (by match a with | ⟨0, _⟩ => rfl | ⟨1, _⟩ => rfl)

/-- The masked score at `(r, c)`. -/
theorem score_at (r c : Fin 4096) :
    val_main_v16 (F := Ideal) x0 x1 x2 x3 (ix2 r c)
      = score (projLeft (matX x0) (matW x2) (vecA1 x3) r + projLeft (matX x0) (matW x2) (vecA2 x3) c) (adjM x1 r c) := by
  have e6 : idx_main_v6 (ix2 r c) = ix2 r 0 :=
    funext fun a => Fin.ext (by match a with | ⟨0, _⟩ => rfl | ⟨1, _⟩ => rfl)
  have e5 : idx_main_v5 (idx_main_v7 (ix2 r c)) = ix2 c 0 :=
    funext fun a => Fin.ext (by match a with | ⟨0, _⟩ => rfl | ⟨1, _⟩ => rfl)
  have hs : val_main_v8 (F := Ideal) x0 x2 x3 (ix2 r c)
      = projLeft (matX x0) (matW x2) (vecA1 x3) r + projLeft (matX x0) (matW x2) (vecA2 x3) c := by
    rw [val_main_v8_apply, val_main_v6_apply, val_main_v7_apply, val_main_v5_apply, e6, e5, proj1, proj2]; rfl
  rw [val_main_v16_apply, val_main_v15_apply, val_main_v14_apply, val_main_c_apply, val_main_v13_apply,
    val_main_v10_apply, val_main_v12_apply, val_main_v11_apply, val_main_cst_0_apply, val_main_v9_apply,
    val_main_cst_apply, val_main_call1_v1_apply, val_main_call1_v0_apply, val_main_cst_1_apply, hs]
  rfl

/-- The row maximum at `r`. -/
theorem max_at (r : Fin 4096) :
    val_main_v19 (F := Ideal) x0 x1 x2 x3 (ix1 r) = rowMax (fun k => val_main_v16 (F := Ideal) x0 x1 x2 x3 (ix2 r k)) := by
  rw [val_main_v19_apply, val_main_v18_apply, val_main_cst_3_apply]
  unfold val_main_v17
  rw [Host.reduce_eq_fold_single FloatOps.maximumf _ _ reducesTo_S4096x4096_S4096_d1 (by decide) h_S_, val_main_cst_2_apply]
  show max (Ideal.ofBits .f32 0xFF800000#32) _ = _
  rw [Rows.neg_inf_max]
  unfold rowMax
  exact congrArg (fun f => Finset.fold max (Ideal.ofBits .f32 0xFF800000#32) f (Finset.univ : Finset (Fin 4096)))
    (funext fun k => congrArg (val_main_v16 (F := Ideal) x0 x1 x2 x3) (Rows.lift_row _ r k))

/-- The exponential at `(r, c)`. -/
theorem exp_at (r c : Fin 4096) :
    val_main_v23 (F := Ideal) x0 x1 x2 x3 (ix2 r c)
      = Ideal.exp (val_main_v16 (F := Ideal) x0 x1 x2 x3 (ix2 r c) - val_main_v19 (F := Ideal) x0 x1 x2 x3 (ix1 r)) := by
  have e : idx_main_v20 (idx_main_v21 (ix2 r c)) = ix1 r :=
    funext fun a => Fin.ext (by match a with | ⟨0, _⟩ => rfl)
  rw [val_main_v23_apply, val_main_v22_apply, val_main_v21_apply, val_main_v20_apply, e]
  rfl

/-- The row sum of exponentials at `r`. -/
theorem sum_at (r : Fin 4096) :
    val_main_v24 (F := Ideal) x0 x1 x2 x3 (ix1 r) = ∑ k : Fin 4096, val_main_v23 (F := Ideal) x0 x1 x2 x3 (ix2 r k) := by
  rw [val_main_v24_apply, val_main_cst_4_apply]
  show Ideal.ofBits .f32 0x00000000#32 + _ = _
  rw [Ideal.ofBits_zero_f32, zero_add]
  exact Finset.sum_congr rfl fun k _ => congrArg (val_main_v23 (F := Ideal) x0 x1 x2 x3)
    (funext fun a => Fin.ext (by match a with | ⟨0, _⟩ => rfl | ⟨1, _⟩ => rfl))

/-- The reference's result is the specification, projections bracketed to the left. -/
theorem result_eq : val_main_v27 (F := Ideal) x0 x1 x2 x3 = resultLeft x0 x1 x2 x3 := by
  funext i
  obtain ⟨r, c, rfl⟩ : ∃ (r c : Fin 4096), i = ix2 r c := ⟨i 0, i 1, eq_ix2 i⟩
  have e : idx_main_v25 (idx_main_v26 (ix2 r c)) = ix1 r :=
    funext fun a => Fin.ext (by match a with | ⟨0, _⟩ => rfl)
  rw [val_main_v27_apply, val_main_v26_apply, val_main_v25_apply, e, sum_at, exp_at, max_at]
  simp only [exp_at, max_at, score_at]
  rfl

end Cert.ReferenceIdeal.RefValue

end
-- ==== Proof.Block.lean ====
/-
  What the kernel body stores, read at entry `(p, q)` of a `[256, 4096]` block.

  The body loads a column `P1 : [256, 1]` (first projections of the block's rows), a row `P2 : [1, 4096]`
  (second projections of all nodes) and the block's adjacency words `P0 : [256, 4096]`. It forms
  `P1 (p, 0) + P2 (0, q)`, rectifies and masks it, takes each row's maximum over the 4096 lanes, exponentiates
  the differences, sums each row, and divides. So entry `(p, q)` of what it stores is the normalised row
  `p` of the scores at column `q` — the same `softmaxRow` the reference computes on whole arrays.
-/
import proofs.«135732_j21698174780222_2_alg».proof.Proof.Gen.KernelIdeal.Skeleton
import proofs.«135732_j21698174780222_2_alg».proof.Proof.Spec
import proofs.«135732_j21698174780222_2_alg».proof.Proof.LibRows

noncomputable section

namespace Cert.KernelIdeal.Block

open Cert.KernelIdeal Cert.KernelIdeal.Gen Idealize.ShloMosaic Idealize.ShloMosaic.ValueIdx Cert.Attn

variable (P1 : FVec Ideal S256x1 .f32) (P2 : FVec Ideal S1x4096 .f32) (P0 : IVec S256x4096 32)

/-- The pre-activations of the block: column plus row, both broadcast. -/
def pre : FVec Ideal S256x4096 .f32 :=
  addf (broadcastTo S256x4096 (shapeCast S256x1 P1 shapeCasts_S256x1_S256x1) broadcasts_S256x1_S256x4096)
    (broadcastTo S256x4096 (shapeCast S1x4096 P2 shapeCasts_S1x4096_S1x4096) broadcasts_S1x4096_S256x4096)

/-- The masked, rectified scores of the block. -/
def scores : FVec Ideal S256x4096 .f32 :=
  select (cmpi .sgt P0 (broadcast S256x4096 0#32))
    (select (cmpf .oge (pre P1 P2) (broadcast S256x4096 (Scalar.ofBits (F := Ideal) .f32 0x00000000#32))) (pre P1 P2)
      (mulf (broadcast S256x4096 (Scalar.ofBits (F := Ideal) .f32 0x3C23D70A#32)) (pre P1 P2)))
    (broadcast S256x4096 (Scalar.ofBits (F := Ideal) .f32 0xD9FFCB9E#32))

/-- Each row's maximum. -/
def maxes : FVec Ideal S256 .f32 :=
  multiReduction (F := Ideal) .maximumf [1] S256 (scores P1 P2 P0) 0xFF800000#32 reduces_S256x4096_S256 (.inl rfl) rfl

/-- The exponentials of the scores less their row's maximum. -/
def exps : FVec Ideal S256x4096 .f32 :=
  exp (subf (scores P1 P2 P0)
    (broadcastTo S256x4096 (shapeCast S256x1 (maxes P1 P2 P0) shapeCasts_S256_S256x1) broadcasts_S256x1_S256x4096))

/-- Each row's sum of exponentials. -/
def sums : FVec Ideal S256 .f32 :=
  multiReduction (F := Ideal) .add [1] S256 (exps P1 P2 P0) 0x00000000#32 reduces_S256x4096_S256 (.inl rfl) rfl

/-- The stored payload is the quotient of the exponentials by their row sums. -/
theorem pay_eq : k0_pay1 (F := Ideal) P1 P2 P0
    = divf (exps P1 P2 P0)
        (broadcastTo S256x4096 (shapeCast S256x1 (sums P1 P2 P0) shapeCasts_S256_S256x1) broadcasts_S256x1_S256x4096) := rfl

theorem pre_at (p : Fin 256) (q : Fin 4096) : pre P1 P2 (ix2 p q) = P1 (ix2 p 0) + P2 (ix2 0 q) := by
  show FloatOps.addf
      (broadcastTo S256x4096 (shapeCast S256x1 P1 shapeCasts_S256x1_S256x1) broadcasts_S256x1_S256x4096 (ix2 p q))
      (broadcastTo S256x4096 (shapeCast S1x4096 P2 shapeCasts_S1x4096_S1x4096) broadcasts_S1x4096_S256x4096 (ix2 p q)) = _
  rw [shapeCast_self, shapeCast_self]
  refine congrArg₂ (· + ·) ?_ ?_
  · exact Rows.bcast_col (by decide) P1 broadcasts_S256x1_S256x4096 p q
  · exact Rows.bcast_row (by decide) P2 broadcasts_S1x4096_S256x4096 p q

theorem scores_at (p : Fin 256) (q : Fin 4096) :
    scores P1 P2 P0 (ix2 p q) = score (P1 (ix2 p 0) + P2 (ix2 0 q)) (P0 (ix2 p q)) := by
  show Scalar.select (IntOp.cmpi .sgt (P0 (ix2 p q)) 0#32)
      (Scalar.select (FloatOps.cmpf (F := Ideal) (φ := .f32) .oge (pre P1 P2 (ix2 p q)) (FloatOps.ofBits (F := Ideal) .f32 0x00000000#32))
        (pre P1 P2 (ix2 p q))
        (FloatOps.mulf (F := Ideal) (φ := .f32) (FloatOps.ofBits (F := Ideal) .f32 0x3C23D70A#32) (pre P1 P2 (ix2 p q))))
      (FloatOps.ofBits (F := Ideal) .f32 0xD9FFCB9E#32) = _
  rw [pre_at]
  rfl

theorem maxes_at (p : Fin 256) : maxes P1 P2 P0 (ix1 p) = rowMax (fun k => scores P1 P2 P0 (ix2 p k)) := by
  refine (Ideal.multiReduction_maximumf_single (scores P1 P2 P0) 0xFF800000#32 reduces_S256x4096_S256 (.inl rfl) rfl (ix1 p)).trans ?_
  unfold rowMax
  exact congrArg (fun f => Finset.fold max (Ideal.ofBits .f32 0xFF800000#32) f (Finset.univ : Finset (Fin 4096)))
    (funext fun k => congrArg (scores P1 P2 P0) (Rows.lift_row _ p k))

theorem exps_at (p : Fin 256) (q : Fin 4096) :
    exps P1 P2 P0 (ix2 p q) = Ideal.exp (scores P1 P2 P0 (ix2 p q) - maxes P1 P2 P0 (ix1 p)) := by
  show Ideal.exp (scores P1 P2 P0 (ix2 p q)
      - broadcastTo S256x4096 (shapeCast S256x1 (maxes P1 P2 P0) shapeCasts_S256_S256x1) broadcasts_S256x1_S256x4096 (ix2 p q)) = _
  rw [Rows.bcast_col (by decide) _ broadcasts_S256x1_S256x4096 p q, Rows.cast_col]

theorem sums_at (p : Fin 256) : sums P1 P2 P0 (ix1 p) = ∑ k : Fin 4096, exps P1 P2 P0 (ix2 p k) := by
  refine (Ideal.multiReduction_add_single (exps P1 P2 P0) 0x00000000#32 reduces_S256x4096_S256 (.inl rfl) rfl (ix1 p)).trans ?_
  exact Finset.sum_congr rfl fun k _ => congrArg (exps P1 P2 P0) (Rows.lift_row _ p k)

/-- Entry `(p, q)` of the stored block: row `p` of the scores, normalised, at column `q`. -/
theorem pay_at (p : Fin 256) (q : Fin 4096) :
    k0_pay1 (F := Ideal) P1 P2 P0 (ix2 p q)
      = softmaxRow (fun k => score (P1 (ix2 p 0) + P2 (ix2 0 k)) (P0 (ix2 p k))) q := by
  rw [pay_eq]
  show Ideal.div (exps P1 P2 P0 (ix2 p q))
      (broadcastTo S256x4096 (shapeCast S256x1 (sums P1 P2 P0) shapeCasts_S256_S256x1) broadcasts_S256x1_S256x4096 (ix2 p q)) = _
  rw [Rows.bcast_col (by decide) _ broadcasts_S256x1_S256x4096 p q, Rows.cast_col, sums_at]
  simp only [exps_at, maxes_at, scores_at]
  rfl

end Cert.KernelIdeal.Block

end
-- ==== Proof.KernelHost.lean ====
/-
  The two arrays the kernel's host operations write before the region, read at their coordinates.

  The host slices the attention vector into its halves, multiplies `W` by each half (a `[512, 1]` column each),
  multiplies `X` by each column (a `[4096, 1]` column each), and recasts the second column as a `[1, 4096]`
  row. A matrix product with one contracted axis is, at an index, the sum over that axis of the products; so
  the first column at `(r, 0)` and the row at `(0, c)` are the projections bracketed `X · (W · a)`.
-/
import proofs.«135732_j21698174780222_2_alg».proof.Proof.Gen.KernelIdeal.Frame
import proofs.«135732_j21698174780222_2_alg».proof.Proof.Views
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Attn

theorem lhs_W_0 (i : S512x1.Idx) (q : dot_S512x64_S64x1_S512x1_1_0_0_1_n_n.contr.Idx) : (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
theorem lhs_W_1 (i : S512x1.Idx) (q : dot_S512x64_S64x1_S512x1_1_0_0_1_n_n.contr.Idx) : (dot_S512x64_S64x1_S512x1_1_0_0_1_n_n.lhsIdx i q 1).val = (q ⟨0, by decide⟩).val :=
  dot_S512x64_S64x1_S512x1_1_0_0_1_n_n.lhsIdx_val_of_single rfl i q
theorem rhs_W_0 (i : S512x1.Idx) (q : dot_S512x64_S64x1_S512x1_1_0_0_1_n_n.contr.Idx) : (dot_S512x64_S64x1_S512x1_1_0_0_1_n_n.rhsIdx i q 0).val = (q ⟨0, by decide⟩).val :=
  dot_S512x64_S64x1_S512x1_1_0_0_1_n_n.rhsIdx_val_of_single rfl i q
theorem rhs_W_1 (i : S512x1.Idx) (q : dot_S512x64_S64x1_S512x1_1_0_0_1_n_n.contr.Idx) : (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- The product at an index of the result is the sum over the contracted coordinate. -/
theorem dot_W_at (l : FVec Ideal S512x64 .f32) (r : FVec Ideal S64x1 .f32) (i : S512x1.Idx) :
    Host.dotGeneral (F := Ideal) dot_S512x64_S64x1_S512x1_1_0_0_1_n_n none l r i
      = ∑ k : Fin 64, l (ix2 (i 0) k) * r (ix2 k (i 1)) := by
  simp only [Host.dotGeneral]
  rw [Ideal.dotGeneral_apply, ← Equiv.sum_comp (ValueIdx.contrEquiv1 dot_S512x64_S64x1_S512x1_1_0_0_1_n_n 64 rfl rfl).symm]
  refine Finset.sum_congr rfl fun k _ => ?_
  have hk := ValueIdx.contrEquiv1_symm_val dot_S512x64_S64x1_S512x1_1_0_0_1_n_n 64 rfl rfl k
  have el : dot_S512x64_S64x1_S512x1_1_0_0_1_n_n.lhsIdx i ((ValueIdx.contrEquiv1 dot_S512x64_S64x1_S512x1_1_0_0_1_n_n 64 rfl rfl).symm k) = ix2 (i 0) k := funext fun a => Fin.ext (by
    match a with
    | ⟨0, _⟩ => exact lhs_W_0 _ _
    | ⟨1, _⟩ => exact (lhs_W_1 _ _).trans hk)
  have er : dot_S512x64_S64x1_S512x1_1_0_0_1_n_n.rhsIdx i ((ValueIdx.contrEquiv1 dot_S512x64_S64x1_S512x1_1_0_0_1_n_n 64 rfl rfl).symm k) = ix2 k (i 1) := funext fun a => Fin.ext (by
    match a with
    | ⟨0, _⟩ => exact (rhs_W_0 _ _).trans hk
    | ⟨1, _⟩ => exact rhs_W_1 _ _)
  exact congrArg₂ (· * ·) (congrArg l el) (congrArg r er)

theorem lhs_X_0 (i : S4096x1.Idx) (q : dot_S4096x512_S512x1_S4096x1_1_0_0_1_n_n.contr.Idx) : (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide), dif_pos (show (0 : Fin S4096x512.rank) ∈ dot_S4096x512_S512x1_S4096x1_1_0_0_1_n_n.lhsNonContracting by decide)]
  rfl
theorem lhs_X_1 (i : S4096x1.Idx) (q : dot_S4096x512_S512x1_S4096x1_1_0_0_1_n_n.contr.Idx) : (dot_S4096x512_S512x1_S4096x1_1_0_0_1_n_n.lhsIdx i q 1).val = (q ⟨0, by decide⟩).val :=
  dot_S4096x512_S512x1_S4096x1_1_0_0_1_n_n.lhsIdx_val_of_single rfl i q
theorem rhs_X_0 (i : S4096x1.Idx) (q : dot_S4096x512_S512x1_S4096x1_1_0_0_1_n_n.contr.Idx) : (dot_S4096x512_S512x1_S4096x1_1_0_0_1_n_n.rhsIdx i q 0).val = (q ⟨0, by decide⟩).val :=
  dot_S4096x512_S512x1_S4096x1_1_0_0_1_n_n.rhsIdx_val_of_single rfl i q
theorem rhs_X_1 (i : S4096x1.Idx) (q : dot_S4096x512_S512x1_S4096x1_1_0_0_1_n_n.contr.Idx) : (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide), dif_pos (show (1 : Fin S512x1.rank) ∈ dot_S4096x512_S512x1_S4096x1_1_0_0_1_n_n.rhsNonContracting by decide)]
  rfl

/-- The product at an index of the result is the sum over the contracted coordinate. -/
theorem dot_X_at (l : FVec Ideal S4096x512 .f32) (r : FVec Ideal S512x1 .f32) (i : S4096x1.Idx) :
    Host.dotGeneral (F := Ideal) dot_S4096x512_S512x1_S4096x1_1_0_0_1_n_n none l r i
      = ∑ k : Fin 512, l (ix2 (i 0) k) * r (ix2 k (i 1)) := by
  simp only [Host.dotGeneral]
  rw [Ideal.dotGeneral_apply, ← Equiv.sum_comp (ValueIdx.contrEquiv1 dot_S4096x512_S512x1_S4096x1_1_0_0_1_n_n 512 rfl rfl).symm]
  refine Finset.sum_congr rfl fun k _ => ?_
  have hk := ValueIdx.contrEquiv1_symm_val dot_S4096x512_S512x1_S4096x1_1_0_0_1_n_n 512 rfl rfl k
  have el : dot_S4096x512_S512x1_S4096x1_1_0_0_1_n_n.lhsIdx i ((ValueIdx.contrEquiv1 dot_S4096x512_S512x1_S4096x1_1_0_0_1_n_n 512 rfl rfl).symm k) = ix2 (i 0) k := funext fun a => Fin.ext (by
    match a with
    | ⟨0, _⟩ => exact lhs_X_0 _ _
    | ⟨1, _⟩ => exact (lhs_X_1 _ _).trans hk)
  have er : dot_S4096x512_S512x1_S4096x1_1_0_0_1_n_n.rhsIdx i ((ValueIdx.contrEquiv1 dot_S4096x512_S512x1_S4096x1_1_0_0_1_n_n 512 rfl rfl).symm k) = ix2 k (i 1) := funext fun a => Fin.ext (by
    match a with
    | ⟨0, _⟩ => exact (rhs_X_0 _ _).trans hk
    | ⟨1, _⟩ => exact rhs_X_1 _ _)
  exact congrArg₂ (· * ·) (congrArg l el) (congrArg r er)

/-- `X · (W · A)` for a half `A` of the attention vector. -/
def hostProj (X : FVec Ideal S4096x512 .f32) (W : FVec Ideal S512x64 .f32) (A : FVec Ideal S64x1 .f32) : FVec Ideal S4096x1 .f32 :=
  Host.dotGeneral (F := Ideal) dot_S4096x512_S512x1_S4096x1_1_0_0_1_n_n none X (Host.dotGeneral (F := Ideal) dot_S512x64_S64x1_S512x1_1_0_0_1_n_n none W A)

theorem hostProj_at (X : FVec Ideal S4096x512 .f32) (W : FVec Ideal S512x64 .f32) (A : FVec Ideal S64x1 .f32) (r : Fin 4096) :
    hostProj X W A (ix2 r 0) = ∑ j : Fin 512, X (ix2 r j) * ∑ k : Fin 64, W (ix2 j k) * A (ix2 k 0) := by
  unfold hostProj
  rw [dot_X_at]
  exact Finset.sum_congr rfl fun j _ => congrArg (X (ix2 r j) * ·) (dot_W_at W A (ix2 j 0))

/-- With the half read as a family `av`, the column at `(r, 0)` is the projection bracketed to the right. -/
theorem hostProj_eq (X : FVec Ideal S4096x512 .f32) (W : FVec Ideal S512x64 .f32) (A : FVec Ideal S64x1 .f32)
    (av : Fin 64 → EReal) (hA : ∀ k : Fin 64, A (ix2 k 0) = av k) (r : Fin 4096) :
    hostProj X W A (ix2 r 0) = projRight (matX X) (matW W) av r := by
  rw [hostProj_at]
  unfold projRight matX matW
  simp only [hA]

/-- Rows `0..63` of the attention vector. -/
theorem slice_lo_at (a : FVec Ideal S128x1 .f32) (k : Fin 64) :
    extractStridedSlice S64x1 ![0, 0] a slices_S128x1_S64x1_0_0 (ix2 k 0) = vecA1 a k :=
  extractStridedSlice_apply ![0, 0] a slices_S128x1_S64x1_0_0 (ix2 k 0) _ (fun b => match b with
    | ⟨0, _⟩ => by show k.val = 0 + k.val; omega
    | ⟨1, _⟩ => by show 0 = 0 + 0; omega)

/-- Rows `64..127` of the attention vector. -/
theorem slice_hi_at (a : FVec Ideal S128x1 .f32) (k : Fin 64) :
    extractStridedSlice S64x1 ![64, 0] a slices_S128x1_S64x1_64_0 (ix2 k 0) = vecA2 a k :=
  extractStridedSlice_apply ![64, 0] a slices_S128x1_S64x1_64_0 (ix2 k 0) _ (fun b => match b with
    | ⟨0, _⟩ => by show 64 + k.val = 64 + k.val; omega
    | ⟨1, _⟩ => by show 0 = 0 + 0; omega)

variable (m : (ℓ : Loc nD τ sig) → Buf (Elt Ideal) ℓ) (c : Dev nD)

/-- The column window's array at region entry. -/
theorem V_col : (V m c main_v4 : S4096x1.Idx → EReal)
    = hostProj (m ((c : Thread nD τ).loc main_arg0)) (m ((c : Thread nD τ).loc main_arg2))
        (extractStridedSlice S64x1 ![0, 0] (m ((c : Thread nD τ).loc main_arg3)) slices_S128x1_S64x1_0_0) := by
  dsimp only [Gen.V, Gen.hostOps0]; after_results; rfl

/-- The row window's array at region entry: the second column, recast. -/
theorem V_row : (V m c main_v6 : S1x4096.Idx → EReal)
    = shapeCast S1x4096 (hostProj (m ((c : Thread nD τ).loc main_arg0)) (m ((c : Thread nD τ).loc main_arg2))
        (extractStridedSlice S64x1 ![64, 0] (m ((c : Thread nD τ).loc main_arg3)) slices_S128x1_S64x1_64_0)) shapeCasts_S4096x1_S1x4096 := by
  dsimp only [Gen.V, Gen.hostOps0]; after_results; rfl

/-- The column at `(r, 0)` is the first projection of node `r`. -/
theorem V_col_at (r : Fin 4096) :
    (V m c main_v4 : S4096x1.Idx → EReal) (ix2 r 0)
      = projRight (matX (m ((c : Thread nD τ).loc main_arg0))) (matW (m ((c : Thread nD τ).loc main_arg2)))
          (vecA1 (m ((c : Thread nD τ).loc main_arg3))) r := by
  rw [V_col]
  exact hostProj_eq _ _ _ _ (slice_lo_at _) r

/-- The row at `(0, k)` is the second projection of node `k`. -/
theorem V_row_at (k : Fin 4096) :
    (V m c main_v6 : S1x4096.Idx → EReal) (ix2 0 k)
      = projRight (matX (m ((c : Thread nD τ).loc main_arg0))) (matW (m ((c : Thread nD τ).loc main_arg2)))
          (vecA2 (m ((c : Thread nD τ).loc main_arg3))) k := by
  rw [V_row]
  refine (shapeCast_apply _ shapeCasts_S4096x1_S1x4096 (ix2 0 k) (ix2 k 0) (by
    rw [Shape.rowMajor_val_two, Shape.rowMajor_val_two]; show k.val * 1 + 0 = 0 * 4096 + k.val; omega)).trans ?_
  exact hostProj_eq _ _ _ _ (slice_hi_at _) k

end Cert.KernelIdeal.HostSide

end
-- ==== Proof.Whole.lean ====
/-
  From blocks to the whole result array.

  The grid has 16 points; point `t` stages rows `256 t .. 256 t + 255` of the column of first projections
  and of the adjacency words, and the whole row of second projections, and writes back rows
  `256 t .. 256 t + 255` of the result. Entry `(p, q)` of what it writes is the normalised row `256 t + p`
  of the scores at column `q`; the blocks tile the array, so the array ends holding, at every `(r, c)`,
  the normalised row `r` at column `c` — the specification with the projections bracketed `X · (W · a)`.
-/
import proofs.«135732_j21698174780222_2_alg».proof.Proof.Gen.KernelIdeal.Value
import proofs.«135732_j21698174780222_2_alg».proof.Proof.Block
import proofs.«135732_j21698174780222_2_alg».proof.Proof.KernelHost

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The result array as a function of the arrays the region finds: the column of first projections, the row
    of second projections, the adjacency words. -/
def found (c : Dev nD) : S4096x4096.Idx → EReal := fun i =>
  attn (fun r => (V m c main_v4 : S4096x1.Idx → EReal) (ix2 r 0))
    (fun k => (V m c main_v6 : S1x4096.Idx → EReal) (ix2 0 k))
    (fun r k => (V m c main_arg1 : S4096x4096.Idx → BitVec 32) (ix2 r k)) (i 0) (i 1)

/-- The index maps over the 16 points: the column and the adjacency block move with the output's row block,
    the row of second projections never moves, and no window moves along its second axis. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 15 :=
  (by decide +kernel : ∀ t : Fin grid0.N, _)

/-- Every row block is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- A block entry as an entry of the whole array, for ANY block contents that are the right pieces of the
    arrays: the column block holds the first projections of rows `R`, the row block all second projections,
    the adjacency block the words of rows `R`. -/
theorem point_eq (B0 : FVec Ideal S256x1 .f32) (B1 : FVec Ideal S1x4096 .f32) (B2 : IVec S256x4096 32)
    (p₁ p₂ : Fin 4096 → EReal) (A : Fin 4096 → Fin 4096 → BitVec 32) (j : S256x4096.Idx) (R : Fin 4096)
    (h0 : B0 (ix2 (j 0) 0) = p₁ R) (h1 : ∀ k, B1 (ix2 0 k) = p₂ k) (h2 : ∀ k, B2 (ix2 (j 0) k) = A R k) :
    k0_pay1 (F := Ideal) B0 B1 B2 j = attn p₁ p₂ A R (j 1) := by
  obtain ⟨p, q, rfl⟩ : ∃ (p : Fin 256) (q : Fin 4096), j = ix2 p q := ⟨j 0, j 1, eq_ix2 j⟩
  rw [Block.pay_at]
  unfold attn
  refine congrArg (fun s => softmaxRow s q) (funext fun k => ?_)
  exact congrArg₂ score (congrArg₂ (· + ·) h0 (h1 k)) (h2 k)

/-- Row `p` of point `t`'s block is a row of the array. -/
theorem row_lt (t : Fin cfg0.N) (p : Fin 256) : win0_3.index t (0 : Fin 2) * 256 + p.val < 4096 := by
  obtain ⟨-, -, -, -, -, -, -, e30⟩ := idx_facts t
  have hp : p.val < 256 := p.isLt
  omega

/-- Block `t` of an array `Gf`, over the block's own coordinates: rows `256 t + p`, all columns. -/
def blockFn (Gf : S4096x4096.Idx → EReal) (t : Fin cfg0.N) : S256x4096.Idx → EReal := fun y =>
  Gf (ix2 (⟨win0_3.index t (0 : Fin 2) * 256 + (y 0).val, row_lt t (y 0)⟩ : Fin 4096) (y 1))

/-- Reading the output window's block at point `t` off any array is that block. -/
theorem read_block (Gf : S4096x4096.Idx → EReal) (t : Fin cfg0.N) :
    (cfg0.win 3).cut (grid0.coords t) (blockFn Gf t) = ((cfg0.win 3).blk t).view.read (Elt Ideal) Gf := by
  obtain ⟨e00, e01, e10, e11, e20, e21, e31, e30⟩ := idx_facts t
  funext j
  have hj0 : (j 0).val < 256 := (j 0).isLt
  have hj1 : (j 1).val < 4096 := (j 1).isLt
  show Gf _ = Gf (((cfg0.win 3).blk t).view.emb j)
  refine congrArg Gf (funext fun a => Fin.ext ?_)
  match a with
  | ⟨0, _⟩ => show win0_3.index t (0 : Fin 2) * 256 + (j 0).val = win0_3.index t (0 : Fin 2) * 256 + 1 * (j 0).val; omega
  | ⟨1, _⟩ => show (j 1).val = win0_3.index t (1 : Fin 2) * 4096 + 1 * (j 1).val; omega

/-- The body's payload on point `t`'s input blocks is block `t` of `found`. -/
theorem pay_block (c : Dev nD) (t : Fin cfg0.N) :
    k0_pay1 (F := Ideal) (iblk m c 0 t) (iblk m c 1 t) (iblk m c 2 t) = blockFn (found m c) t := by
  obtain ⟨e00, e01, e10, e11, e20, e21, e31, e30⟩ := idx_facts t
  funext y
  have hy0 : (y 0).val < 256 := (y 0).isLt
  refine (point_eq (iblk m c 0 t) (iblk m c 1 t) (iblk m c 2 t)
    (fun r => (V m c main_v4 : S4096x1.Idx → EReal) (ix2 r 0)) (fun k => (V m c main_v6 : S1x4096.Idx → EReal) (ix2 0 k)) (fun r k => (V m c main_arg1 : S4096x4096.Idx → BitVec 32) (ix2 r k)) y
    (⟨win0_3.index t (0 : Fin 2) * 256 + (y 0).val, row_lt t (y 0)⟩ : Fin 4096) ?_ ?_ ?_).trans rfl
  · show (V m c main_v4 : S4096x1.Idx → EReal) (((cfg0.win 0).blk t).view.emb (ix2 (y 0) 0)) = (V m c main_v4 : S4096x1.Idx → EReal) (ix2 _ 0)
    refine congrArg _ (funext fun a => Fin.ext ?_)
    match a with
    | ⟨0, _⟩ => show win0_0.index t (0 : Fin 2) * 256 + 1 * (y 0).val = win0_3.index t (0 : Fin 2) * 256 + (y 0).val; omega
    | ⟨1, _⟩ => show win0_0.index t (1 : Fin 2) * 1 + 1 * 0 = 0; omega
  · intro k
    have hk : k.val < 4096 := k.isLt
    show (V m c main_v6 : S1x4096.Idx → EReal) (((cfg0.win 1).blk t).view.emb (ix2 0 k)) = (V m c main_v6 : S1x4096.Idx → EReal) (ix2 0 k)
    refine congrArg _ (funext fun a => Fin.ext ?_)
    match a with
    | ⟨0, _⟩ => show win0_1.index t (0 : Fin 2) * 1 + 1 * 0 = 0; omega
    | ⟨1, _⟩ => show win0_1.index t (1 : Fin 2) * 4096 + 1 * k.val = k.val; omega
  · intro k
    have hk : k.val < 4096 := k.isLt
    show (V m c main_arg1 : S4096x4096.Idx → BitVec 32) (((cfg0.win 2).blk t).view.emb (ix2 (y 0) k)) = (V m c main_arg1 : S4096x4096.Idx → BitVec 32) (ix2 _ k)
    refine congrArg _ (funext fun a => Fin.ext ?_)
    match a with
    | ⟨0, _⟩ => show win0_2.index t (0 : Fin 2) * 256 + 1 * (y 0).val = win0_3.index t (0 : Fin 2) * 256 + (y 0).val; omega
    | ⟨1, _⟩ => show win0_2.index t (1 : Fin 2) * 4096 + 1 * k.val = k.val; omega

/-- What point `t` writes back is block `t` of `found`. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero zero_off]
  simp only [View.ld_unit_zero (S := S256x1) zero_off, View.ld_unit_zero (S := S1x4096) zero_off,
    View.ld_unit_zero (S := S256x4096) zero_off]
  rw [pay_block]
  exact read_block (found m c) t

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v7).slice (win0_3.rect t)).set ↔ _
  rw [View.set_slice_whole, Rect.mem_set_unit]
  exact Iff.rfl

/-- The point that covers row `r` is `r / 256`. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- So the array ends holding `found`. -/
theorem final (c : Dev nD) : (dats m 0 c).arrAt 3 cfg0.N = found m c :=
  (dats m 0 c).arrAt_eq_of_cover 3 (found m c) (fun t _ => flushed_eq m c t) (cover)

/-- In terms of the argument arrays `found` is the specification, projections bracketed to the right. -/
theorem found_eq (c : Dev nD) :
    found m c = resultRight (m ((c : Thread nD τ).loc main_arg0)) (m ((c : Thread nD τ).loc main_arg1)) (m ((c : Thread nD τ).loc main_arg2)) (m ((c : Thread nD τ).loc main_arg3)) := by
  have e1 : (fun r => (V m c main_v4 : S4096x1.Idx → EReal) (ix2 r 0))
      = projRight (matX (m ((c : Thread nD τ).loc main_arg0))) (matW (m ((c : Thread nD τ).loc main_arg2))) (vecA1 (m ((c : Thread nD τ).loc main_arg3))) := funext fun r => HostSide.V_col_at m c r
  have e2 : (fun k => (V m c main_v6 : S1x4096.Idx → EReal) (ix2 0 k))
      = projRight (matX (m ((c : Thread nD τ).loc main_arg0))) (matW (m ((c : Thread nD τ).loc main_arg2))) (vecA2 (m ((c : Thread nD τ).loc main_arg3))) := funext fun k => HostSide.V_row_at m c k
  have e3 : (fun r k => (V m c main_arg1 : S4096x4096.Idx → BitVec 32) (ix2 r k)) = adjM (m ((c : Thread nD τ).loc main_arg1)) := by
    rw [V_main_arg1]; rfl
  funext i
  unfold found resultRight
  rw [e1, e2, e3]

/-- The kernel's run: the result array is the specification of the arguments, the arguments unchanged. -/
theorem run : θ_run defs (onTc (τ := τ) (main (F := Ideal))) ⟨m, fun _ => 0, ρ⟩ fun r => ∀ c : Dev nD,
      r.2.mem ((c : Thread nD τ).loc main_v7) = resultRight (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (found_eq m c)), (h c).2⟩)
    (Value.run_blocks m ρ)

end Cert.KernelIdeal.Whole

end
-- ==== Proof.Finite.lean ====
/-
  What the precondition says: every entry of `X`, of `W` and of the attention vector is a real number.

  The precondition is the conjunction of three "all entries have absolute value below plus infinity" tests. A
  reduction by `and` that ends at one has a one at every entry; an extended real whose absolute value
  `max x (-x)` is strictly below plus infinity is neither infinity, hence a real.
-/
import proofs.«135732_j21698174780222_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

variable [Facts]

instance : Subsingleton S_.Idx := ⟨fun a b => funext fun d => d.elim0⟩

/-- Plus infinity's f32 word denotes `⊤`. -/
theorem ofBits_pos_inf : Ideal.ofBits .f32 0x7F800000#32 = (⊤ : EReal) := by
  simp [Ideal.ofBits, Ideal.ieee]

/-- An extended real whose absolute value tests strictly below plus infinity is a real. -/
theorem real_of_abs_lt (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_pos_inf] at h'
  induction x using EReal.rec with
  | bot => exfalso; simp [Ideal.cmp] at h'
  | coe r => exact ⟨r, rfl⟩
  | top => exfalso; simp [Ideal.cmp] at h'

/-- The precondition gives a real at every entry of the three float arguments. -/
theorem reals_of_pre (x0 : FVec Ideal S4096x512 .f32) (x1 : IVec S4096x4096 32) (x2 : FVec Ideal S512x64 .f32)
    (x3 : FVec Ideal S128x1 .f32) (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h' := congrFun h ValueIdx.ix0
  dsimp only [fn] at h'
  change IntOp.andi (IntOp.andi _ _) _ = 1#1 at h'
  obtain ⟨h12, h3⟩ := IntOp.andi_eq_one.mp h'
  obtain ⟨h1, h2⟩ := IntOp.andi_eq_one.mp h12
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Pre_finite_inputs.Finite

end
-- ==== Proof.lean ====
/-
  A graph-attention score matrix with a masked row softmax, computed two ways, is one array.

  Both programs take node features `X : [4096, 512]`, adjacency words `adj : [4096, 4096]`, a weight matrix
  `W : [512, 64]` and an attention vector `a : [128, 1]` read as two halves `a₁`, `a₂`. Entry `(r, c)` of
  the result is

      exp (s r c - max_k s r k) / Σ_k exp (s r k - max_k s r k),
      s r c = if adj r c > 0 then leaky (p₁ r + p₂ c) else -9e15 (as its f32 word),

  with `leaky e = e` for `e ≥ 0` and `0.01 · e` (the f32 word nearest 0.01) otherwise, and `p₁`, `p₂` the
  projections of the nodes onto `W · a₁` and `W · a₂`.

  The reference brackets a projection as `(X · W) · a`; the kernel folds the vector into the weights first,
  `X · (W · a)`, on the host, and runs the masked softmax over 16 row blocks of 256 rows. At exact
  arithmetic the softmax stage is the same function of the projections on both sides (a row's maximum and sum
  do not depend on how rows are grouped into blocks), and the two bracketings agree because every entry of
  `X`, `W` and `a` is a real number under the precondition: distributivity and the swap of two finite
  sums hold for reals, and the extended-real sums here never meet an infinity.

  `Spec` states the function and the reassociation law; `Views` reads the arguments as families and gives the
  two whole-array forms; `RefValue` reads the reference; `Block`, `KernelHost` and `Whole` read the kernel
  (a block entry, the two host-written operands, the tiling of the result); `Finite` opens the precondition.
-/
import proofs.«135732_j21698174780222_2_alg».proof.Defs
import proofs.«135732_j21698174780222_2_alg».proof.Proof.Gen.Kernel
import proofs.«135732_j21698174780222_2_alg».proof.Proof.Gen.Kernel.Skeleton
import proofs.«135732_j21698174780222_2_alg».proof.Proof.Gen.Kernel.Launch
import proofs.«135732_j21698174780222_2_alg».proof.Proof.Gen.Kernel.Points
import proofs.«135732_j21698174780222_2_alg».proof.Proof.Gen.Kernel.Frame
import proofs.«135732_j21698174780222_2_alg».proof.Proof.Gen.KernelIdeal
import proofs.«135732_j21698174780222_2_alg».proof.Proof.Gen.KernelIdeal.Skeleton
import proofs.«135732_j21698174780222_2_alg».proof.Proof.Gen.KernelIdeal.Launch
import proofs.«135732_j21698174780222_2_alg».proof.Proof.Gen.KernelIdeal.Points
import proofs.«135732_j21698174780222_2_alg».proof.Proof.Gen.KernelIdeal.Frame
import proofs.«135732_j21698174780222_2_alg».proof.Proof.Gen.ReferenceIdeal
import proofs.«135732_j21698174780222_2_alg».proof.Proof.Gen.Pre_finite_inputs
import proofs.«135732_j21698174780222_2_alg».proof.Proof.Gen.KernelIdeal.Value
import proofs.«135732_j21698174780222_2_alg».proof.Proof.Gen.ReferenceIdeal.Run
import proofs.«135732_j21698174780222_2_alg».proof.Proof.Gen.ReferenceIdeal.Read
import proofs.«135732_j21698174780222_2_alg».proof.Proof.RefValue
import proofs.«135732_j21698174780222_2_alg».proof.Proof.Whole
import proofs.«135732_j21698174780222_2_alg».proof.Proof.Finite
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- From memories agreeing on the arguments, whose float entries are all finite, both programs end with the
    same array: the kernel's is the specification with projections bracketed `X · (W · a)`, the reference's
    the one bracketed `(X · W) · a`, and on reals the two are equal. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2.1, (hagree c).2.2.2]
  obtain ⟨h0, h2, h3⟩ := Cert.Pre_finite_inputs.Finite.reals_of_pre _ _ _ _ (hpre c)
  exact Cert.Attn.resultLeft_eq_resultRight _ _ _ _ h0 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
